-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S256x64 : Shape := ⟨2, ![256, 64]⟩
abbrev S256 : Shape := ⟨1, ![256]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S262144x64 .f32) (main_arg1 : FVec F S256x64 .f32) (main_arg2 : FVec F S256 .f32) (main_arg3 : FVec F S256 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S262144x64 : Shape := ⟨2, ![262144, 64]⟩
abbrev S256x64 : Shape := ⟨2, ![256, 64]⟩
abbrev S256 : Shape := ⟨1, ![256]⟩
abbrev S_ : Shape := ⟨0, ![]⟩
abbrev S256x1 : Shape := ⟨2, ![256, 1]⟩
abbrev S256x262144 : Shape := ⟨2, ![256, 262144]⟩
abbrev S8192x64 : Shape := ⟨2, ![8192, 64]⟩
abbrev S256x8192 : Shape := ⟨2, ![256, 8192]⟩
abbrev S8192 : Shape := ⟨1, ![8192]⟩
abbrev S1x8192 : Shape := ⟨2, ![1, 8192]⟩
abbrev S64x8192 : Shape := ⟨2, ![64, 8192]⟩

abbrev nBuf : Space → Nat
  | .hbm => 27
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S256x64, .f32⟩
  | .hbm, ⟨2, _⟩ => ⟨S256, .f32⟩
  | .hbm, ⟨3, _⟩ => ⟨S256, .f32⟩
  | .hbm, ⟨4, _⟩ => ⟨S256x64, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x64, .f32⟩
  | .hbm, ⟨11, _⟩ => ⟨S256x64, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256x1, .f32⟩
  | .hbm, ⟨25, _⟩ => ⟨S256x1, .f32⟩
  | .hbm, ⟨26, _⟩ => ⟨S256x262144, .f32⟩
  | .local _ .vmem, ⟨0, _⟩ => ⟨S256x64, .f32⟩
  | .local _ .vmem, ⟨1, _⟩ => ⟨S256x1, .f32⟩
  | .local _ .vmem, ⟨2, _⟩ => ⟨S256x1, .f32⟩
  | .local _ .vmem, ⟨3, _⟩ => ⟨S8192x64, .f32⟩
  | .local _ .vmem, ⟨4, _⟩ => ⟨S8192x64, .f32⟩
  | .local _ .vmem, ⟨5, _⟩ => ⟨S256x8192, .f32⟩
  | .local _ .vmem, ⟨6, _⟩ => ⟨S256x8192, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S256x64_S256_d1 : S256x64.ReducesTo [1] S256
  h_S_ : 0 < S_.numel
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S_S256 : S_.BroadcastsInDim S256 (![] : Fin 0 → Fin S256.rank)
  shapeCasts_S256_S256x1 : S256.ShapeCasts S256x1
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S1x8192 : S8192.ShapeCasts S1x8192
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S8192x64_p1_0_S64x8192 : S8192x64.Transposes [1, 0] S64x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8192 : S256x1.Broadcasts S256x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  dot_S256x64_S64x8192_S256x8192_1_0_0_1_n_n_wf : DotDims.WF S256x64 S64x8192 S256x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S262144x64.size a
  hwx0_3 : ∀ i : grid0.Coords, EltTy.bits .f32 = 32 ∨ (Rect.block (s := S262144x64) S8192x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S256x262144.size a
  hwx0_4 : ∀ i : grid0.Coords, EltTy.bits .f32 = 32 ∨ (Rect.block (s := S256x262144) S256x8192.size (cc0_transform_4 i) (hinb0_4 i)).WholeWords (EltTy.packing .f32)

variable [Facts₀]

def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf

abbrev win0_0 : Pipeline.Window sig grid0 :=
  Pipeline.Window.ofSpec (Memref.whole main_v6) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8192x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x64 : Shape := ⟨2, ![262144, 64]⟩
abbrev S256x64 : Shape := ⟨2, ![256, 64]⟩
abbrev S256 : Shape := ⟨1, ![256]⟩
abbrev S_ : Shape := ⟨0, ![]⟩
abbrev S262144 : Shape := ⟨1, ![262144]⟩
abbrev S256x262144 : Shape := ⟨2, ![256, 262144]⟩
abbrev S256x1 : Shape := ⟨2, ![256, 1]⟩
abbrev S1x262144 : Shape := ⟨2, ![1, 262144]⟩

abbrev nBuf : Space → Nat
  | .hbm => 35
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S256x64, .f32⟩
  | .hbm, ⟨2, _⟩ => ⟨S256, .f32⟩
  | .hbm, ⟨3, _⟩ => ⟨S256, .f32⟩
  | .hbm, ⟨4, _⟩ => ⟨S262144x64, .f32⟩
  | .hbm, ⟨5, _⟩ => ⟨S_, .f32⟩
  | .hbm, ⟨6, _⟩ => ⟨S262144, .f32⟩
  | .hbm, ⟨7, _⟩ => ⟨S256x64, .f32⟩
  | .hbm, ⟨8, _⟩ => ⟨S_, .f32⟩
  | .hbm, ⟨9, _⟩ => ⟨S256, .f32⟩
  | .hbm, ⟨10, _⟩ => ⟨S256x262144, .f32⟩
  | .hbm, ⟨11, _⟩ => ⟨S256x1, .f32⟩
  | .hbm, ⟨12, _⟩ => ⟨S1x262144, .f32⟩
  | .hbm, ⟨13, _⟩ => ⟨S256x262144, .f32⟩
  | .hbm, ⟨14, _⟩ => ⟨S256x262144, .f32⟩
  | .hbm, ⟨15, _⟩ => ⟨S256x262144, .f32⟩
  | .hbm, ⟨16, _⟩ => ⟨S_, .f32⟩
  | .hbm, ⟨17, _⟩ => ⟨S256x262144, .f32⟩
  | .hbm, ⟨18, _⟩ => ⟨S256x262144, .f32⟩
  | .hbm, ⟨19, _⟩ => ⟨S256x262144, .f32⟩
  | .hbm, ⟨20, _⟩ => ⟨S256, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x262144, .f32⟩
  | .hbm, ⟨29, _⟩ => ⟨S256x262144, .f32⟩
  | .hbm, ⟨30, _⟩ => ⟨S_, .f32⟩
  | .hbm, ⟨31, _⟩ => ⟨S256x262144, .f32⟩
  | .hbm, ⟨32, _⟩ => ⟨S256x262144, .f32⟩
  | .hbm, ⟨33, _⟩ => ⟨S256x262144, .f32⟩
  | .hbm, ⟨34, _⟩ => ⟨S256x262144, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  reducesTo_S256x64_S256_d1 : S256x64.ReducesTo [1] S256
  bcast_S256_S256x1_0 : S256.BroadcastsInDim S256x1 (![0] : Fin 1 → Fin S256x1.rank)
  bcast_S262144_S1x262144_1 : S262144.BroadcastsInDim S1x262144 (![1] : Fin 1 → Fin S1x262144.rank)
  bcast_S256x1_S256x262144_0_1 : S256x1.BroadcastsInDim S256x262144 (![0, 1] : Fin 2 → Fin S256x262144.rank)
  bcast_S1x262144_S256x262144_0_1 : S1x262144.BroadcastsInDim S256x262144 (![0, 1] : Fin 2 → Fin S256x262144.rank)
  bcast_S_S256x262144 : S_.BroadcastsInDim S256x262144 (![] : Fin 0 → Fin S256x262144.rank)
  bcast_S_S256x1 : S_.BroadcastsInDim S256x1 (![] : Fin 0 → Fin S256x1.rank)
  dot_S256x64_S262144x64_S256x262144_1_1_0_0_n_n_wf : DotDims.WF S256x64 S262144x64 S256x262144 [1] [1] [0] [0] [] []

variable [Facts₀]

def dot_S256x64_S262144x64_S256x262144_1_1_0_0_n_n : DotDims S256x64 S262144x64 S256x262144 where
  lhsContracting := [1]
  rhsContracting := [1]
  lhsNonContracting := [0]
  rhsNonContracting := [0]
  lhsBatch := []
  rhsBatch := []
  wf := dot_S256x64_S262144x64_S256x262144_1_1_0_0_n_n_wf

class Facts : Prop extends Facts₀ where

variable [Facts]
-- ==== Proof.Spec.lean ====
/-
  The mathematics of the certificate, with no program in sight.

  For a point x_n ∈ ℝ^64 and a mixture component k with mean μ_k ∈ ℝ^64, log-variance l_k and log-weight α_k, both
  programs compute the (unnormalised) log-likelihood
      α_k − 32·l_k − ½·‖x_n − μ_k‖² / exp(l_k),
  with the squared distance expanded as ‖μ_k‖² + ‖x_n‖² − 2·⟨μ_k, x_n⟩.  One program divides the expanded
  distance by exp(l_k) (`refAt`); the other multiplies through by exp(−l_k) beforehand, so that the entry becomes
      c_k + s_k·‖x_n‖² + ⟨μ_k·exp(−l_k), x_n⟩,   c_k = α_k − 32·l_k − (½·‖μ_k‖²)·exp(−l_k),   s_k = −½·exp(−l_k)
  (`kerAt`).  The two agree on real inputs because exp(−l) = 1/exp(l) and multiplication distributes over the
  finite sums; on the extended reals distributivity needs every entry finite, which is what the hypotheses say.
-/
import Idealize.ShloMosaic.PureOps.Ideal
import Idealize.ShloMosaic.PureOps.Ideal.Laws
import Idealize.ShloMosaic.Lib.ValueIdx

noncomputable section

open scoped BigOperators

namespace Cert.Gmm

open Idealize.ShloMosaic Idealize.ShloMosaic.ValueIdx

/-- The points: 262144 rows of 64 coordinates. -/
abbrev SX : Shape := ⟨2, ![262144, 64]⟩
/-- The means: 256 rows of 64 coordinates. -/
abbrev SM : Shape := ⟨2, ![256, 64]⟩
/-- One number per component. -/
abbrev SK : Shape := ⟨1, ![256]⟩
/-- The result: one row per component, one column per point. -/
abbrev SO : Shape := ⟨2, ![256, 262144]⟩

/-! ## The float literals the two programs spell, as the reals they denote -/

theorem lit_zero : Ideal.ofBits .f32 0x00000000#32 = 0 := Ideal.ofBits_zero_f32

theorem lit_32 : Ideal.ofBits .f32 0x42000000#32 = ((32 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

/-! ## The two arrangements of one entry -/

/-- Entry (k, n) with the expanded squared distance DIVIDED by the variance exp(l_k). -/
def refAt (X : SX.Idx → EReal) (mu : SM.Idx → EReal) (l a : SK.Idx → EReal) (k : Fin 256) (n : Fin 262144) : EReal :=
  (a (ix1 k) - Ideal.ofBits .f32 0x42000000#32 * l (ix1 k))
    - Ideal.ofBits .f32 0x3F000000#32
      * Ideal.div
          (((Ideal.ofBits .f32 0x00000000#32 + ∑ d : Fin 64, mu (ix2 k d) * mu (ix2 k d))
              + (Ideal.ofBits .f32 0x00000000#32 + ∑ d : Fin 64, X (ix2 n d) * X (ix2 n d)))
            - Ideal.ofBits .f32 0x40000000#32 * ∑ d : Fin 64, mu (ix2 k d) * X (ix2 n d))
          (Ideal.exp (l (ix1 k)))

/-- The same entry with everything multiplied through by exp(−l_k) beforehand: a constant per component, a scale
    per component times the point's squared norm, and the inner product with the rescaled mean. -/
def kerAt (X : SX.Idx → EReal) (mu : SM.Idx → EReal) (l a : SK.Idx → EReal) (k : Fin 256) (n : Fin 262144) : EReal :=
  (((a (ix1 k) - Ideal.ofBits .f32 0x42000000#32 * l (ix1 k))
        - (Ideal.ofBits .f32 0x3F000000#32 * (Ideal.ofBits .f32 0x00000000#32 + ∑ d : Fin 64, mu (ix2 k d) * mu (ix2 k d)))
            * Ideal.exp (-(l (ix1 k))))
      + (Ideal.ofBits .f32 0xBF000000#32 * Ideal.exp (-(l (ix1 k)))) * ∑ d : Fin 64, X (ix2 n d) * X (ix2 n d))
    + ∑ d : Fin 64, (mu (ix2 k d) * Ideal.exp (-(l (ix1 k)))) * X (ix2 n d)

/-- The whole result arrays, index by index. -/
def refFn (X : SX.Idx → EReal) (mu : SM.Idx → EReal) (l a : SK.Idx → EReal) : SO.Idx → EReal :=
  fun i => refAt X mu l a (i 0) (i 1)
def kerFn (X : SX.Idx → EReal) (mu : SM.Idx → EReal) (l a : SK.Idx → EReal) : SO.Idx → EReal :=
  fun i => kerAt X mu l a (i 0) (i 1)

/-! ## The law that joins them, on real inputs -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: multiplying through by exp(−l) is dividing by exp(l). -/
theorem real_law (α lam S1 S2 S3 : ℝ) :
    (((α - 32 * lam) - (1 / 2 * S1) * Real.exp (-lam)) + (-(1 / 2) * Real.exp (-lam)) * S2) + Real.exp (-lam) * S3
      = (α - 32 * lam) - 1 / 2 * (((S1 + S2) - 2 * S3) * (1 / Real.exp lam)) := by
  rw [Real.exp_neg]
  have h : Real.exp lam ≠ 0 := (Real.exp_pos lam).ne'
  field_simp
  ring

/-- ON REAL INPUTS THE TWO ARRANGEMENTS ARE ONE NUMBER. -/
theorem kerAt_eq_refAt (X : SX.Idx → EReal) (mu : SM.Idx → EReal) (l a : SK.Idx → EReal)
    (hX : ∀ i, ∃ r : ℝ, X i = (r : EReal)) (hmu : ∀ i, ∃ r : ℝ, mu i = (r : EReal))
    (hl : ∀ i, ∃ r : ℝ, l i = (r : EReal)) (ha : ∀ i, ∃ r : ℝ, a i = (r : EReal))
    (k : Fin 256) (n : Fin 262144) : kerAt X mu l a k n = refAt X mu l a k n := by
  choose x hx using hX
  choose u hu using hmu
  choose lam hlam using hl
  choose α hα using ha
  unfold kerAt refAt
  simp only [hx, hu, hlam, hα, lit_zero, lit_32, lit_half, lit_neg_half, lit_two, zero_add]
  simp only [← EReal.coe_neg, Ideal.exp_coe, ← EReal.coe_mul, ← coe_sum, ← EReal.coe_add, ← EReal.coe_sub]
  rw [Ideal.div_coe (Real.exp_pos _).ne']
  simp only [← EReal.coe_mul, ← EReal.coe_sub]
  refine congrArg _ ?_
  have e3 : ∑ d : Fin 64, u (ix2 k d) * Real.exp (-lam (ix1 k)) * x (ix2 n d)
      = Real.exp (-lam (ix1 k)) * ∑ d : Fin 64, u (ix2 k d) * x (ix2 n d) := by
    rw [Finset.mul_sum]; exact Finset.sum_congr rfl fun d _ => by ring
  rw [e3]
  exact real_law _ _ _ _ _

end Cert.Gmm

end
-- ==== Proof.Finite.lean ====
/-
  What the precondition says, entry by entry.

  The precondition is the conjunction of four "all entries satisfy |x| < +∞" tests, one per argument array.  On the
  extended reals |x| = max x (−x) is below +∞ exactly when x is neither infinity, that is, when x is a real number.
  So under the precondition every entry of every argument array is (the image of) a real.
-/
import proofs.«108058_j55448027791416_2_alg».proof.Pre_finite_inputs
import Idealize.ShloMosaic.Lib.ReduceAll
import Idealize.ShloMosaic.PureOps.Ideal.Laws
import Idealize.ShloMosaic.Lib.ValueIdx

noncomputable section

namespace Cert.Gmm.Finite

open Idealize.ShloMosaic Idealize.ShloMosaic.ValueIdx Cert.Pre_finite_inputs

/-- The word 0x7F800000 denotes +∞. -/
theorem lit_inf : Ideal.ofBits .f32 0x7F800000#32 = ⊤ := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [lit_inf] at h
  have hlt : max x (-x) < ⊤ := by
    by_contra hn
    simp [Ideal.cmp, hn] at h
  induction x using EReal.rec with
  | bot => simp at hlt
  | top => simp at hlt
  | coe r => exact ⟨r, rfl⟩

variable [Facts]

/-- UNDER THE PRECONDITION EVERY ENTRY OF EVERY ARGUMENT ARRAY IS A REAL. -/
theorem reals_of_pre (X : FVec Ideal S262144x64 .f32) (mu : FVec Ideal S256x64 .f32) (l a : FVec Ideal S256 .f32)
    (h : fn (F := Ideal) X mu l a = fun _ => 1#1) :
    (∀ i, ∃ r : ℝ, X i = (r : EReal)) ∧ (∀ i, ∃ r : ℝ, mu i = (r : EReal))
      ∧ (∀ i, ∃ r : ℝ, l i = (r : EReal)) ∧ (∀ i, ∃ r : ℝ, a i = (r : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  haveI : Subsingleton S_.Idx := ⟨fun a b => funext fun d => d.elim0⟩
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.Gmm.Finite

end
-- ==== Proof.RefValue.lean ====
/-
  The reference program's result, read at an index.

  Its last stage, followed back one operation at a time to the four argument arrays, is at entry (k, n) exactly the
  arrangement `Cert.Gmm.refAt`: the two squared norms and the inner product are sums over the 64 coordinates (the
  host's row sums start from the zero word, hence the `0 +` in front of two of them), every broadcast just repeats a
  per-component or per-point number along the other axis, and the division is the extended reals' division.
-/
import proofs.«108058_j55448027791416_2_alg».proof.Proof.Gen.ReferenceIdeal.Read
import proofs.«108058_j55448027791416_2_alg».proof.Proof.Spec

noncomputable section

open scoped BigOperators

namespace Cert.Gmm.RefValue

open Idealize.ShloMosaic Idealize.ShloMosaic.ValueIdx Cert.ReferenceIdeal Cert.ReferenceIdeal.Read Cert.Gmm

/-- THE REFERENCE'S LAST STAGE IS `refFn` OF THE ARGUMENT ARRAYS. -/
theorem val_eq_refFn (X : SX.Idx → EReal) (mu : SM.Idx → EReal) (l a : SK.Idx → EReal) :
    val_main_v25 (F := Ideal) X mu l a = refFn X mu l a := by
  funext i
  obtain ⟨k, n, rfl⟩ : ∃ (k : Fin 256) (n : Fin 262144), i = ix2 k n := ⟨i 0, i 1, eq_ix2 i⟩
  simp only [val_main_v25_apply, val_main_v24_apply, val_main_v23_apply, val_main_v22_apply, val_main_cst_3_apply,
    val_main_v21_apply, val_main_v20_apply, val_main_v19_apply, val_main_v18_apply, val_main_v17_apply,
    val_main_cst_2_apply, val_main_v16_apply, val_main_v15_apply, val_main_v14_apply, val_main_v13_apply,
    val_main_v12_apply, val_main_v11_apply, val_main_v10_apply, val_main_cst_1_apply, val_main_v9_apply,
    val_main_v8_apply, val_main_v7_apply, val_main_v6_apply, val_main_v5_apply, val_main_v4_apply,
    val_main_v3_apply, val_main_cst_0_apply, val_main_v2_apply, val_main_v1_apply, val_main_cst_apply,
    val_main_v0_apply,
    Ideal.ofBits_def, Ideal.addf_def, Ideal.subf_def, Ideal.mulf_def, Ideal.hostDivf_def, Ideal.hostUnary_exp_def]
  -- the composed index maps of the broadcasts and reductions, at entry (k, n)
  have e1 : idx_main_v15 (idx_main_v24 (ix2 k n)) = ix1 k :=
    funext fun a => Fin.ext (by match a with | ⟨0, _⟩ => rfl)
  have e2 : idx_main_v16 (idx_main_v24 (ix2 k n)) = ix1 k :=
    funext fun a => Fin.ext (by match a with | ⟨0, _⟩ => rfl)
  have e3 : ∀ d : Fin 64, idx_main_v3 (idx_main_v5 (idx_main_v7 (ix2 k n))) d = ix2 k d :=
    fun d => funext fun a => Fin.ext (by match a with | ⟨0, _⟩ => rfl | ⟨1, _⟩ => rfl)
  have e4 : ∀ d : Fin 64, idx_main_v1 (idx_main_v6 (idx_main_v8 (ix2 k n))) d = ix2 n d :=
    fun d => funext fun a => Fin.ext (by match a with | ⟨0, _⟩ => rfl | ⟨1, _⟩ => rfl)
  have e5 : ∀ d : Fin 64, lidx_main_v4 (ix2 k n) d = ix2 k d :=
    fun d => funext fun a => Fin.ext (by match a with | ⟨0, _⟩ => rfl | ⟨1, _⟩ => rfl)
  have e6 : ∀ d : Fin 64, ridx_main_v4 (ix2 k n) d = ix2 n d :=
    fun d => funext fun a => Fin.ext (by match a with | ⟨0, _⟩ => rfl | ⟨1, _⟩ => rfl)
  have e7 : idx_main_v14 (idx_main_v20 (ix2 k n)) = ix1 k :=
    funext fun a => Fin.ext (by match a with | ⟨0, _⟩ => rfl)
  simp only [e1, e2, e3, e4, e5, e6, e7]
  rfl

end Cert.Gmm.RefValue

end
-- ==== Proof.Staged.lean ====
/-
  What the launch finds in the three small operands computed before it.

  Before the grid runs, three arrays are computed once from the means μ, the log-variances l and the log-weights α:
    · the rescaled means      μ_k · exp(−l_k)                                   (one row of 64 per component),
    · the constant            c_k = (α_k − 32·l_k) − (½·(0 + ‖μ_k‖²))·exp(−l_k)   (a column, one entry per component),
    · the scale               s_k = −½·exp(−l_k)                                 (a column, one entry per component).
  Each is read here at an index as that expression of the argument arrays: a broadcast repeats a number along an
  axis, a reshape of a vector into a column keeps its entries, and the row sum is the sum over the 64 coordinates.
-/
import proofs.«108058_j55448027791416_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run

noncomputable section

open scoped BigOperators

namespace Cert.Gmm.Staged

open Idealize.ShloMosaic Idealize.ShloMosaic.TcCoe Idealize.SL.Sem Idealize.ShloMosaic.ValueIdx
open Idealize.ShloMosaic.StableHlo
open Cert.KernelIdeal Cert.KernelIdeal.Facts₀

/-! ## The layout operations of the prologue, read at an index -/

/-- A vector laid out as a column keeps its entries. -/
theorem col_of_vec (y : S256.Idx → EReal) (k : Fin 256) (u : Fin 1) :
    broadcastInDim S256x1 ![0] bcast_S256_S256x1_0 y (ix2 k u) = y (ix1 k) :=
  broadcastInDim_apply _ bcast_S256_S256x1_0 y (ix2 k u) (ix1 k) (fun a => match a with
    | ⟨0, _⟩ => by show k.val = if (256 : Nat) = 1 then 0 else k.val; rw [if_neg (by decide)])

/-- A column repeated along 64 columns reads its own entry in every column. -/
theorem row_of_col (y : S256x1.Idx → EReal) (k : Fin 256) (d : Fin 64) :
    broadcastInDim S256x64 ![0, 1] bcast_S256x1_S256x64_0_1 y (ix2 k d) = y (ix2 k (0 : Fin 1)) :=
  broadcastInDim_apply _ bcast_S256x1_S256x64_0_1 y (ix2 k d) (ix2 k (0 : Fin 1)) (fun a => match a with
    | ⟨0, _⟩ => by show k.val = if (256 : Nat) = 1 then 0 else k.val; rw [if_neg (by decide)]
    | ⟨1, _⟩ => by show 0 = if (1 : Nat) = 1 then 0 else d.val; rw [if_pos rfl])

/-- A scalar repeated along a vector reads the scalar. -/
theorem vec_of_scalar (y : S_.Idx → EReal) (k : Fin 256) :
    broadcastInDim S256 ![] bcast_S_S256 y (ix1 k) = y ix0 :=
  broadcastInDim_apply _ bcast_S_S256 y (ix1 k) ix0 (fun a => a.elim0)

/-- A vector reshaped into a column keeps its entries. -/
theorem col_cast (y : S256.Idx → EReal) (k : Fin 256) (u : Fin 1) :
    shapeCast S256x1 y shapeCasts_S256_S256x1 (ix2 k u) = y (ix1 k) :=
  shapeCast_apply y shapeCasts_S256_S256x1 _ _ (by
    have hu : u.val = 0 := by omega
    rw [Shape.rowMajor_val_two, Shape.rowMajor_val_one]
    show k.val = k.val * 1 + u.val
    rw [hu, Nat.mul_one, Nat.add_zero])

/-- The row sums of a 256 × 64 array, started from a given scalar: entry k is that scalar plus the sum of row k. -/
theorem rowsum (y : FVec Ideal S256x64 .f32) (z : FVec Ideal S_ .f32) (k : Fin 256) :
    Host.reduceAdd y z reducesTo_S256x64_S256_d1 h_S_ (ix1 k) = z (Shape.Idx.first h_S_) + ∑ d : Fin 64, y (ix2 k d) := by
  simp only [Host.reduceAdd, Ideal.hostReduceAdd_def]
  rw [Ideal.hostReduceAdd_single reducesTo_S256x64_S256_d1 (by decide)]
  refine congrArg (_ + ·) (Finset.sum_congr rfl fun d _ => ?_)
  exact congrArg y (funext fun a => Fin.ext (by match a with | ⟨0, _⟩ => rfl | ⟨1, _⟩ => rfl))

/-! ## The three operands as functions of the argument arrays -/

/-- The rescaled means μ · exp(−l). -/
def muscOf (mu : FVec Ideal S256x64 .f32) (l : FVec Ideal S256 .f32) : FVec Ideal S256x64 .f32 :=
  mulf mu (broadcastInDim S256x64 ![0, 1] bcast_S256x1_S256x64_0_1
    (broadcastInDim S256x1 ![0] bcast_S256_S256x1_0 (Host.exp (F := Ideal) (Host.negf (F := Ideal) l))))

/-- The per-component constant, as a column. -/
def ckOf (mu : FVec Ideal S256x64 .f32) (l a : FVec Ideal S256 .f32) : FVec Ideal S256x1 .f32 :=
  shapeCast S256x1
    (subf (subf a (mulf (broadcastInDim S256 ![] bcast_S_S256 (constant (F := Ideal) S_ .f32 0x42000000#32)) l))
      (mulf (mulf (broadcastInDim S256 ![] bcast_S_S256 (constant (F := Ideal) S_ .f32 0x3F000000#32))
          (Host.reduceAdd (F := Ideal) (mulf mu mu) (constant (F := Ideal) S_ .f32 0x00000000#32) reducesTo_S256x64_S256_d1 h_S_))
        (Host.exp (F := Ideal) (Host.negf (F := Ideal) l))))
    shapeCasts_S256_S256x1

/-- The per-component scale, as a column. -/
def skOf (l : FVec Ideal S256 .f32) : FVec Ideal S256x1 .f32 :=
  shapeCast S256x1
    (mulf (broadcastInDim S256 ![] bcast_S_S256 (constant (F := Ideal) S_ .f32 0xBF000000#32))
      (Host.exp (F := Ideal) (Host.negf (F := Ideal) l)))
    shapeCasts_S256_S256x1

theorem muscOf_apply (mu : FVec Ideal S256x64 .f32) (l : FVec Ideal S256 .f32) (k : Fin 256) (d : Fin 64) :
    muscOf mu l (ix2 k d) = mu (ix2 k d) * Ideal.exp (-(l (ix1 k))) := by
  unfold muscOf
  rw [mulf_apply, row_of_col, col_of_vec]
  rfl

theorem ckOf_apply (mu : FVec Ideal S256x64 .f32) (l a : FVec Ideal S256 .f32) (k : Fin 256) (u : Fin 1) :
    ckOf mu l a (ix2 k u)
      = (a (ix1 k) - Ideal.ofBits .f32 0x42000000#32 * l (ix1 k))
        - (Ideal.ofBits .f32 0x3F000000#32 * (Ideal.ofBits .f32 0x00000000#32 + ∑ d : Fin 64, mu (ix2 k d) * mu (ix2 k d)))
          * Ideal.exp (-(l (ix1 k))) := by
  unfold ckOf
  rw [col_cast]
  simp only [subf_apply, mulf_apply, vec_of_scalar, rowsum]
  rfl

theorem skOf_apply (l : FVec Ideal S256 .f32) (k : Fin 256) (u : Fin 1) :
    skOf l (ix2 k u) = Ideal.ofBits .f32 0xBF000000#32 * Ideal.exp (-(l (ix1 k))) := by
  unfold skOf
  rw [col_cast]
  simp only [mulf_apply, vec_of_scalar]
  rfl

/-! ## They are what the launch finds -/

variable (m : (ℓ : Loc nD τ sig) → Buf (Elt Ideal) ℓ)

theorem V_musc (c : Dev nD) :
    (Gen.V m c main_v6 : S256x64.Idx → EReal)
      = muscOf (m ((c : Thread nD τ).loc main_arg1)) (m ((c : Thread nD τ).loc main_arg2)) := by
  dsimp only [Gen.V, Gen.hostOps0]; after_results; rfl

theorem V_ck (c : Dev nD) :
    (Gen.V m c main_v16 : S256x1.Idx → EReal)
      = ckOf (m ((c : Thread nD τ).loc main_arg1)) (m ((c : Thread nD τ).loc main_arg2)) (m ((c : Thread nD τ).loc main_arg3)) := by
  dsimp only [Gen.V, Gen.hostOps0]; after_results; rfl

theorem V_sk (c : Dev nD) :
    (Gen.V m c main_v17 : S256x1.Idx → EReal) = skOf (m ((c : Thread nD τ).loc main_arg2)) := by
  dsimp only [Gen.V, Gen.hostOps0]; after_results; rfl

end Cert.Gmm.Staged

end
-- ==== Proof.Payload.lean ====
/-
  What one grid step computes, entry by entry.

  A step holds a block x of 8192 points (8192 × 64), the rescaled means M (256 × 64), and the two columns c and s
  (256 × 1).  It stores the 256 × 8192 block whose entry (k, r) is
      (c_k + s_k · ‖x_r‖²) + ⟨M_k, x_r⟩ :
  the squared norm is the lane sum of x·x over the 64 coordinates, laid out as one row and repeated down the 256
  rows; the two columns are repeated along the 8192 columns; and the product of M with the transpose of x, started
  from zero, has at (k, r) the sum over the 64 coordinates of M_k,d · x_r,d.
-/
import proofs.«108058_j55448027791416_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gmm.Payload

open Idealize.ShloMosaic Idealize.ShloMosaic.ValueIdx
open Cert.KernelIdeal Cert.KernelIdeal.Facts₀

/-- The dimension numbers of the step's one matrix product: rows of the left operand against rows of the transposed right one. -/
abbrev D : DotDims S256x64 S64x8192 S256x8192 := dot_S256x64_S64x8192_S256x8192_1_0_0_1_n_n

/-- A column repeated along the 8192 columns of the block reads its own entry in every column. -/
theorem col_bcast (y : FVec Ideal S256x1 .f32) (k : Fin 256) (r : Fin 8192) :
    broadcastTo S256x8192 y broadcasts_S256x1_S256x8192 (ix2 k r) = y (ix2 k (0 : Fin 1)) := by
  refine broadcastTo_apply y broadcasts_S256x1_S256x8192 (ix2 k r) (ix2 k (0 : Fin 1)) fun ax => ?_
  match ax with
  | ⟨0, _⟩ => show k.val = if (256 : Nat) = 1 then 0 else k.val; rw [if_neg (by decide)]
  | ⟨1, _⟩ => rfl

/-- The lane sum of x·x at point r is the squared norm of row r. -/
theorem sqnorm_apply (x : FVec Ideal S8192x64 .f32) (r : Fin 8192) :
    multiReduction (F := Ideal) .add [1] S8192 (mulf x x) 0x00000000#32 reduces_S8192x64_S8192 (.inl rfl) rfl (ix1 r)
      = ∑ d : Fin 64, x (ix2 r d) * x (ix2 r d) := by
  refine (Ideal.multiReduction_add_single (mulf x x) 0x00000000#32 reduces_S8192x64_S8192 (.inl rfl) rfl (ix1 r)).trans ?_
  show ∑ d : Fin 64, (mulf x x) (reduces_S8192x64_S8192.lift (ix1 r) d) = _
  refine Finset.sum_congr rfl fun d _ => ?_
  have e : reduces_S8192x64_S8192.lift (ix1 r) d = ix2 r d :=
    funext fun a => Fin.ext (by match a with | ⟨0, _⟩ => rfl | ⟨1, _⟩ => rfl)
  rw [e]; rfl

theorem lhs0 (i : S256x8192.Idx) (q : D.contr.Idx) : (D.lhsIdx i q 0).val = (i 0).val := by
  unfold DotDims.lhsIdx
  rw [dif_neg (show ¬(0 : Fin S256x64.rank) ∈ D.lhsBatch by decide),
    dif_pos (show (0 : Fin S256x64.rank) ∈ D.lhsNonContracting by decide)]
  rfl
theorem lhs1 (i : S256x8192.Idx) (q : D.contr.Idx) : (D.lhsIdx i q 1).val = (q ⟨0, by decide⟩).val :=
  D.lhsIdx_val_of_single rfl i q
theorem rhs0 (i : S256x8192.Idx) (q : D.contr.Idx) : (D.rhsIdx i q 0).val = (q ⟨0, by decide⟩).val :=
  D.rhsIdx_val_of_single rfl i q
theorem rhs1 (i : S256x8192.Idx) (q : D.contr.Idx) : (D.rhsIdx i q 1).val = (i 1).val := by
  unfold DotDims.rhsIdx
  rw [dif_neg (show ¬(1 : Fin S64x8192.rank) ∈ D.rhsBatch by decide),
    dif_pos (show (1 : Fin S64x8192.rank) ∈ D.rhsNonContracting by decide)]
  rfl

/-- The matrix product started from zero, at (k, r): the sum over the 64 coordinates of the products. -/
theorem cross_apply (ms : FVec Ideal S256x64 .f32) (xt : FVec Ideal S64x8192 .f32) (k : Fin 256) (r : Fin 8192) :
    matmul (F := Ideal) D (some .fp32) ms xt (constant (F := Ideal) S256x8192 .f32 0x00000000#32) (ix2 k r)
      = ∑ d : Fin 64, ms (ix2 k d) * xt (ix2 d r) := by
  simp only [matmul]
  rw [Ideal.matmul_constant_zero_apply, ← Equiv.sum_comp (ValueIdx.contrEquiv1 D 64 rfl rfl).symm]
  refine Finset.sum_congr rfl fun d _ => ?_
  have hk := ValueIdx.contrEquiv1_symm_val D 64 rfl rfl d
  have el : D.lhsIdx (ix2 k r) ((ValueIdx.contrEquiv1 D 64 rfl rfl).symm d) = ix2 k d := funext fun a => Fin.ext (by
    match a with
    | ⟨0, _⟩ => exact lhs0 _ _
    | ⟨1, _⟩ => exact (lhs1 _ _).trans hk)
  have er : D.rhsIdx (ix2 k r) ((ValueIdx.contrEquiv1 D 64 rfl rfl).symm d) = ix2 d r := funext fun a => Fin.ext (by
    match a with
    | ⟨0, _⟩ => exact (rhs0 _ _).trans hk
    | ⟨1, _⟩ => exact rhs1 _ _)
  rw [el, er]

/-- THE STORED BLOCK AT (k, r). -/
theorem pay_apply (x : FVec Ideal S8192x64 .f32) (ms : FVec Ideal S256x64 .f32) (ck sk : FVec Ideal S256x1 .f32)
    (k : Fin 256) (r : Fin 8192) :
    Gen.k0_pay1 (F := Ideal) x ms ck sk (ix2 k r)
      = (ck (ix2 k (0 : Fin 1)) + sk (ix2 k (0 : Fin 1)) * ∑ d : Fin 64, x (ix2 r d) * x (ix2 r d))
        + ∑ d : Fin 64, ms (ix2 k d) * x (ix2 r d) := by
  unfold Gen.k0_pay1
  dsimp only
  simp only [addf_apply, mulf_apply, col_bcast, shapeCast_self, broadcastTo_1b_ab_apply, shapeCast_a_1a_apply,
    cross_apply]
  refine congrArg₂ (· + ·) (congrArg (fun z => ck (ix2 k (0 : Fin 1)) + sk (ix2 k (0 : Fin 1)) * z) ?_)
    (Finset.sum_congr rfl fun d _ => congrArg (ms (ix2 k d) * ·) ?_)
  · exact sqnorm_apply x r
  · exact transpose_ix2_apply x _ d r

end Cert.Gmm.Payload

end
-- ==== Proof.Blocks.lean ====
/-
  From the 32 stored blocks to the whole result array.

  Grid point t reads points t·8192 … t·8192 + 8191 (a block of 8192 rows of the point array), the whole of the three
  small operands, and writes columns t·8192 … t·8192 + 8191 of the 256 × 262144 result.  Entry (k, r) of the block it
  writes is entry (k, t·8192 + r) of `Cert.Gmm.kerFn` of the four argument arrays: the block of points is read at
  row t·8192 + r, the three operands are what the prologue computed from the arguments, and the step's arithmetic is
  the arrangement `kerAt`.  The 32 column blocks tile the result (column j lies in block j / 8192), so after the run
  the whole array is `kerFn`.
-/
import proofs.«108058_j55448027791416_2_alg».proof.Proof.Gen.KernelIdeal.Value
import proofs.«108058_j55448027791416_2_alg».proof.Proof.Spec
import proofs.«108058_j55448027791416_2_alg».proof.Proof.Staged
import proofs.«108058_j55448027791416_2_alg».proof.Proof.Payload

noncomputable section

open scoped BigOperators

namespace Cert.Gmm.Blocks

open Idealize.ShloMosaic Idealize.ShloMosaic.TcCoe Idealize.SL.Sem Idealize.ShloMosaic.ValueIdx
open Idealize.ShloMosaic.Pipeline (Dat)
open Cert.KernelIdeal Cert.Gmm

variable (m : (ℓ : Loc nD τ sig) → Buf (Elt Ideal) ℓ) (ρ : Dev nD → PrngReg)

/-- The four argument arrays on core c, as functions into the extended reals. -/
abbrev aX (c : Dev nD) : SX.Idx → EReal := m ((c : Thread nD τ).loc main_arg0)
abbrev aMu (c : Dev nD) : SM.Idx → EReal := m ((c : Thread nD τ).loc main_arg1)
abbrev aL (c : Dev nD) : SK.Idx → EReal := m ((c : Thread nD τ).loc main_arg2)
abbrev aA (c : Dev nD) : SK.Idx → EReal := m ((c : Thread nD τ).loc main_arg3)

theorem hz : (![0, 0] : Fin 2 → Nat) = fun _ => 0 := funext fun a => by fin_cases a <;> rfl

/-- Where each operand's block sits at grid point t: the three small operands always at the origin, the points'
    block at row block t, the result's block at column block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

theorem t_lt (t : Fin cfg0.N) : t.val < 32 := lt_of_lt_of_eq t.isLt Gen.N_0

/-! ## The blocks a grid point reads -/

/-- Row r of point t's block of points is row t·8192 + r of the point array. -/
theorem read_X (c : Dev nD) (t : Fin cfg0.N) (r : Fin 8192) (d : Fin 64) (n : Fin 262144) (hn : n.val = t.val * 8192 + r.val) :
    Gen.iblk m c 3 t (ix2 r d) = m ((c : Thread nD τ).loc main_arg0) (ix2 n d) := by
  show Gen.V m c main_arg0 (((cfg0.win 3).blk t).view.emb (ix2 r d)) = _
  rw [Gen.V_main_arg0]
  refine congrArg (m ((c : Thread nD τ).loc main_arg0)) (funext fun a => Fin.ext ?_)
  obtain ⟨-, -, -, -, -, -, e30, e31, -, -⟩ := idx_facts t
  match a with
  | ⟨0, _⟩ => show win0_3.index t (0 : Fin 2) * 8192 + 1 * r.val = n.val; omega
  | ⟨1, _⟩ => show win0_3.index t (1 : Fin 2) * 64 + 1 * d.val = d.val; omega

/-- The rescaled means' block is the whole operand. -/
theorem read_musc (c : Dev nD) (t : Fin cfg0.N) (k : Fin 256) (d : Fin 64) :
    Gen.iblk m c 0 t (ix2 k d) = (Gen.V m c main_v6 : S256x64.Idx → EReal) (ix2 k d) := by
  show (Gen.V m c main_v6 : S256x64.Idx → EReal) (((cfg0.win 0).blk t).view.emb (ix2 k d)) = _
  refine congrArg (Gen.V m c main_v6 : S256x64.Idx → EReal) (funext fun a => Fin.ext ?_)
  obtain ⟨e00, e01, -, -, -, -, -, -, -, -⟩ := idx_facts t
  match a with
  | ⟨0, _⟩ => show win0_0.index t (0 : Fin 2) * 256 + 1 * k.val = k.val; omega
  | ⟨1, _⟩ => show win0_0.index t (1 : Fin 2) * 64 + 1 * d.val = d.val; omega

/-- The constants' block is the whole column. -/
theorem read_ck (c : Dev nD) (t : Fin cfg0.N) (k : Fin 256) (u : Fin 1) :
    Gen.iblk m c 1 t (ix2 k u) = (Gen.V m c main_v16 : S256x1.Idx → EReal) (ix2 k u) := by
  show (Gen.V m c main_v16 : S256x1.Idx → EReal) (((cfg0.win 1).blk t).view.emb (ix2 k u)) = _
  refine congrArg (Gen.V m c main_v16 : S256x1.Idx → EReal) (funext fun a => Fin.ext ?_)
  obtain ⟨-, -, e10, e11, -, -, -, -, -, -⟩ := idx_facts t
  match a with
  | ⟨0, _⟩ => show win0_1.index t (0 : Fin 2) * 256 + 1 * k.val = k.val; omega
  | ⟨1, _⟩ => show win0_1.index t (1 : Fin 2) * 1 + 1 * u.val = u.val; omega

/-- The scales' block is the whole column. -/
theorem read_sk (c : Dev nD) (t : Fin cfg0.N) (k : Fin 256) (u : Fin 1) :
    Gen.iblk m c 2 t (ix2 k u) = (Gen.V m c main_v17 : S256x1.Idx → EReal) (ix2 k u) := by
  show (Gen.V m c main_v17 : S256x1.Idx → EReal) (((cfg0.win 2).blk t).view.emb (ix2 k u)) = _
  refine congrArg (Gen.V m c main_v17 : S256x1.Idx → EReal) (funext fun a => Fin.ext ?_)
  obtain ⟨-, -, -, -, e20, e21, -, -, -, -⟩ := idx_facts t
  match a with
  | ⟨0, _⟩ => show win0_2.index t (0 : Fin 2) * 256 + 1 * k.val = k.val; omega
  | ⟨1, _⟩ => show win0_2.index t (1 : Fin 2) * 1 + 1 * u.val = u.val; omega

/-- Entry (k, r) of the block point t writes is entry (k, t·8192 + r) of the result. -/
theorem emb_out (t : Fin cfg0.N) (k : Fin 256) (r : Fin 8192) (n : Fin 262144) (hn : n.val = t.val * 8192 + r.val) :
    ((cfg0.win 4).blk t).view.emb (ix2 k r) = (ix2 k n : S256x262144.Idx) := by
  funext a; apply Fin.ext
  obtain ⟨-, -, -, -, -, -, -, -, e40, e41⟩ := idx_facts t
  match a with
  | ⟨0, _⟩ => show win0_4.index t (0 : Fin 2) * 256 + 1 * k.val = k.val; omega
  | ⟨1, _⟩ => show win0_4.index t (1 : Fin 2) * 8192 + 1 * r.val = n.val; omega

/-! ## What a grid point writes back -/

/-- WHAT POINT t WRITES BACK is block t of `kerFn` of the argument arrays. -/
theorem flushed_eq (c : Dev nD) (t : Fin cfg0.N) :
    (Gen.dats m 0 c).flushed 4 t = ((cfg0.win 4).blk t).view.read (Elt Ideal)
      (kerFn (aX m c) (aMu m c) (aL m c) (aA m c)) := by
  rw [Cert.KernelIdeal.Value.flushed4]
  unfold Gen.out0_4
  rw [View.canon_unit_zero hz]
  simp only [View.ld_unit_zero (S := S8192x64) hz, View.ld_unit_zero (S := S256x64) hz, View.ld_unit_zero (S := S256x1) hz]
  funext j
  obtain ⟨k, r, rfl⟩ : ∃ (k : Fin 256) (r : Fin 8192), j = ix2 k r := ⟨j 0, j 1, eq_ix2 j⟩
  have ht := t_lt t
  obtain ⟨n, hn⟩ : ∃ n : Fin 262144, n.val = t.val * 8192 + r.val :=
    ⟨⟨t.val * 8192 + r.val, by have := r.isLt; omega⟩, rfl⟩
  show Gen.k0_pay1 (F := Ideal) (Gen.iblk m c 3 t) (Gen.iblk m c 0 t) (Gen.iblk m c 1 t) (Gen.iblk m c 2 t) (ix2 k r)
    = kerFn (aX m c) (aMu m c) (aL m c) (aA m c) (((cfg0.win 4).blk t).view.emb (ix2 k r))
  rw [emb_out t k r n hn]
  refine (Payload.pay_apply (Gen.iblk m c 3 t) (Gen.iblk m c 0 t) (Gen.iblk m c 1 t) (Gen.iblk m c 2 t) k r).trans ?_
  have hX : ∀ d : Fin 64, Gen.iblk m c 3 t (ix2 r d) = aX m c (ix2 n d) :=
    fun d => read_X m c t r d n hn
  have hM : ∀ d : Fin 64, Gen.iblk m c 0 t (ix2 k d)
      = aMu m c (ix2 k d) * Ideal.exp (-(aL m c (ix1 k))) :=
    fun d => (read_musc m c t k d).trans (by rw [Staged.V_musc, Staged.muscOf_apply])
  have hC := (read_ck m c t k (0 : Fin 1)).trans (by rw [Staged.V_ck, Staged.ckOf_apply])
  have hS := (read_sk m c t k (0 : Fin 1)).trans (by rw [Staged.V_sk, Staged.skOf_apply])
  show _ = kerAt (aX m c) (aMu m c) (aL m c) (aA m c) k n
  unfold kerAt
  exact congrArg₂ (· + ·)
    (congrArg₂ (· + ·) hC (congrArg₂ (· * ·) hS (Finset.sum_congr rfl fun d _ => by rw [hX d])))
    (Finset.sum_congr rfl fun d _ => by rw [hM d, hX d])

/-! ## The blocks tile the result -/

/-- An index of the result is in point t's block iff each coordinate is in the block's range on its axis. -/
theorem mem_blk (t : Fin cfg0.N) (i : S256x262144.Idx) :
    i ∈ ((cfg0.win 4).blk t).view.set ↔ ∀ a : Fin 2, win0_4.index t a * S256x8192.size a ≤ (i a).val
      ∧ (i a).val < win0_4.index t a * S256x8192.size a + S256x8192.size a := by
  show i ∈ ((View.whole main_v18).slice (win0_4.rect t)).set ↔ _
  rw [View.set_slice_whole, Rect.mem_set_unit]
  exact Iff.rfl

/-- Every index of the result is in some point's block: column j is in block j / 8192. -/
theorem cover (i : S256x262144.Idx) :
    ∃ t : Fin cfg0.N, (cfg0.win 4).flush t = true ∧ i ∈ ((cfg0.win 4).blk t).view.set := by
  have hi0 : (i 0).val < 256 := idx2_lt0 i
  have hi1 : (i 1).val < 262144 := idx2_lt1 i
  obtain ⟨t, ht⟩ : ∃ t : Fin cfg0.N, t.val = (i 1).val / 8192 :=
    ⟨⟨(i 1).val / 8192, lt_of_lt_of_eq (by omega : (i 1).val / 8192 < 32) Gen.N_0.symm⟩, rfl⟩
  refine ⟨t, Gen.flush0_4 t, ?_⟩
  rw [mem_blk]
  obtain ⟨-, -, -, -, -, -, -, -, e40, e41⟩ := idx_facts t
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 8192 ≤ (i 1).val ∧ (i 1).val < win0_4.index t (1 : Fin 2) * 8192 + 8192
    omega

/-- THE RESULT ARRAY AFTER THE RUN is `kerFn` of the argument arrays. -/
theorem final (c : Dev nD) :
    (Gen.dats m 0 c).arrAt 4 cfg0.N
      = kerFn (aX m c) (aMu m c) (aL m c) (aA m c) :=
  (Gen.dats m 0 c).arrAt_eq_of_cover 4 _ (fun t _ => flushed_eq m c t) cover

/-- Every weakly fair execution ends with the result at `kerFn` of the arguments, the arguments unchanged. -/
theorem run : θ_run defs (onTc (τ := τ) (main (F := Ideal))) ⟨m, fun _ => 0, ρ⟩ fun r => ∀ c : Dev nD,
      r.2.mem ((c : Thread nD τ).loc main_v18)
          = kerFn (aX m c) (aMu m c) (aL m c) (aA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Gmm.Blocks

end
-- ==== Proof.lean ====
/-
  Gaussian-mixture log-likelihoods: 262144 points x_n ∈ ℝ^64 against 256 components with means μ_k, log-variances l_k
  and log-weights α_k.  The result has at (k, n) the number  α_k − 32·l_k − ½·‖x_n − μ_k‖² / exp(l_k),  the squared
  distance expanded as ‖μ_k‖² + ‖x_n‖² − 2·⟨μ_k, x_n⟩.

  One program computes it as written: row sums for the two squared norms, one matrix product for the inner products,
  then a division by exp(l_k).  The other first multiplies everything that depends on k alone through by exp(−l_k)
  — a constant c_k, a scale s_k and the rescaled means μ_k·exp(−l_k) — and then, for each block of 8192 points, adds
  c_k, s_k·‖x_n‖² and the inner product of the rescaled mean with the point; the 32 blocks of columns tile the result.

  On the extended reals the two agree when every input entry is a real number (the precondition): then
  exp(−l) = 1/exp(l), division by the positive real exp(l) is multiplication by its reciprocal, and multiplication
  distributes over the finite sums.  The parts:
    · Proof/Spec.lean      the two arrangements of an entry and the law joining them on real inputs;
    · Proof/Finite.lean    the precondition says every entry is a real;
    · Proof/RefValue.lean  the first program's result is the first arrangement, index by index;
    · Proof/Staged.lean, Proof/Payload.lean, Proof/Blocks.lean
                           the second program's small operands, one block's arithmetic, and the blocks tiling the
                           result: its result is the second arrangement, index by index.
  Nothing is rewritten between the word-level program and its reading over the extended reals, so that claim is trivial.
-/
import proofs.«108058_j55448027791416_2_alg».proof.Defs
import proofs.«108058_j55448027791416_2_alg».proof.Proof.Gen.Kernel
import proofs.«108058_j55448027791416_2_alg».proof.Proof.Gen.Kernel.Skeleton
import proofs.«108058_j55448027791416_2_alg».proof.Proof.Gen.Kernel.Launch
import proofs.«108058_j55448027791416_2_alg».proof.Proof.Gen.Kernel.Points
import proofs.«108058_j55448027791416_2_alg».proof.Proof.Gen.Kernel.Frame
import proofs.«108058_j55448027791416_2_alg».proof.Proof.Gen.KernelIdeal
import proofs.«108058_j55448027791416_2_alg».proof.Proof.Gen.KernelIdeal.Skeleton
import proofs.«108058_j55448027791416_2_alg».proof.Proof.Gen.KernelIdeal.Launch
import proofs.«108058_j55448027791416_2_alg».proof.Proof.Gen.KernelIdeal.Points
import proofs.«108058_j55448027791416_2_alg».proof.Proof.Gen.KernelIdeal.Frame
import proofs.«108058_j55448027791416_2_alg».proof.Proof.Gen.ReferenceIdeal
import proofs.«108058_j55448027791416_2_alg».proof.Proof.Gen.Pre_finite_inputs
import proofs.«108058_j55448027791416_2_alg».proof.Proof.Gen.KernelIdeal.Value
import proofs.«108058_j55448027791416_2_alg».proof.Proof.Gen.ReferenceIdeal.Run
import proofs.«108058_j55448027791416_2_alg».proof.Proof.Gen.ReferenceIdeal.Read
import proofs.«108058_j55448027791416_2_alg».proof.Proof.Spec
import proofs.«108058_j55448027791416_2_alg».proof.Proof.Finite
import proofs.«108058_j55448027791416_2_alg».proof.Proof.RefValue
import proofs.«108058_j55448027791416_2_alg».proof.Proof.Blocks
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The program that computes the result as written runs and leaves its arguments alone: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading over the extended reals. -/
theorem preserves : Cert.preserves_Kernel_KernelIdeal := trivial

/-- From memories that agree on the four arguments, all of whose entries are real, both programs end with the same
    result: the second arrangement of each entry on one side, the first on the other, and on real inputs they are one
    number. -/
theorem algebraic : Cert.algebraic_KernelIdeal_ReferenceIdeal := by
  intro m ρ m' ρ' hpre hagree
  refine ⟨_, Cert.Gmm.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Gmm.RefValue.val_eq_refFn,
    (hagree c).1, (hagree c).2.1, (hagree c).2.2.1, (hagree c).2.2.2]
  obtain ⟨hX, hmu, hl, ha⟩ := Cert.Gmm.Finite.reals_of_pre _ _ _ _ (hpre c)
  funext i
  exact (Cert.Gmm.kerAt_eq_refAt _ _ _ _ hX hmu hl ha (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
